-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x16x12288 : Shape := ⟨3, ![8, 16, 12288]⟩
abbrev S6144x6144 : Shape := ⟨2, ![6144, 6144]⟩
abbrev S_ : Shape := ⟨0, ![]⟩

class Facts : Prop where
  bcast_S_S8x16x12288 : S_.BroadcastsInDim S8x16x12288 (![] : Fin 0 → Fin S8x16x12288.rank)
  reducesTo_S8x16x12288_S_d0_1_2 : S8x16x12288.ReducesTo [0, 1, 2] S_
  h_S_ : 0 < S_.numel
  bcast_S_S6144x6144 : S_.BroadcastsInDim S6144x6144 (![] : Fin 0 → Fin S6144x6144.rank)
  reducesTo_S6144x6144_S_d0_1 : S6144x6144.ReducesTo [0, 1] S_

variable [Facts]

def fn {F : FTy → Type} [FloatOps F] (main_arg0 : FVec F S8x16x12288 .f32) (main_arg1 : FVec F S6144x6144 .f32) : IVec S_ 1 :=
  let main_v0 : FVec F S8x16x12288 .f32 := Host.absf main_arg0
  let main_cst : FVec F S_ .f32 := constant S_ .f32 0x7F800000#32
  let main_v1 : FVec F S8x16x12288 .f32 := broadcastInDim S8x16x12288 ![] bcast_S_S8x16x12288 main_cst
  let main_v2 : IVec S8x16x12288 1 := cmpf .olt main_v0 main_v1
  let main_c : IVec S_ 1 := constantI S_ 1 1#1
  let main_v3 : IVec S_ 1 := (fun x v => Host.reduce IntOp.andi x v reducesTo_S8x16x12288_S_d0_1_2 h_S_) main_v2 main_c
  let main_v4 : FVec F S6144x6144 .f32 := Host.absf main_arg1
  let main_cst_0 : FVec F S_ .f32 := constant S_ .f32 0x7F800000#32
  let main_v5 : FVec F S6144x6144 .f32 := broadcastInDim S6144x6144 ![] bcast_S_S6144x6144 main_cst_0
  let main_v6 : IVec S6144x6144 1 := cmpf .olt main_v4 main_v5
  let main_c_1 : IVec S_ 1 := constantI S_ 1 1#1
  let main_v7 : IVec S_ 1 := (fun x v => Host.reduce IntOp.andi x v reducesTo_S6144x6144_S_d0_1 h_S_) main_v6 main_c_1
  let main_v8 : IVec S_ 1 := andi main_v3 main_v7
  main_v8
-- ==== Kernel.lean ====
abbrev S8x16x12288 : Shape := ⟨3, ![8, 16, 12288]⟩
abbrev S6144x6144 : Shape := ⟨2, ![6144, 6144]⟩
abbrev S128x12288 : Shape := ⟨2, ![128, 12288]⟩
abbrev S128x6144 : Shape := ⟨2, ![128, 6144]⟩
abbrev S6144x512 : Shape := ⟨2, ![6144, 512]⟩
abbrev S128x512 : Shape := ⟨2, ![128, 512]⟩

abbrev nBuf : Space → Nat
  | .hbm => 5
  | .vmem => 5
  | .smem => 0
  | _ => 0

abbrev bufTy : (tb : Table) → Fin (tcTables nBuf tb) → BufTy
  | .hbm, ⟨0, _⟩ => ⟨S8x16x12288, .f32⟩
  | .hbm, ⟨1, _⟩ => ⟨S6144x6144, .f32⟩
  | .hbm, ⟨2, _⟩ => ⟨S128x12288, .f32⟩
  | .hbm, ⟨3, _⟩ => ⟨S128x12288, .f32⟩
  | .hbm, ⟨4, _⟩ => ⟨S8x16x12288, .f32⟩
  | .local _ .vmem, ⟨0, _⟩ => ⟨S128x6144, .f32⟩
  | .local _ .vmem, ⟨1, _⟩ => ⟨S6144x512, .f32⟩
  | .local _ .vmem, ⟨2, _⟩ => ⟨S6144x512, .f32⟩
  | .local _ .vmem, ⟨3, _⟩ => ⟨S128x512, .f32⟩
  | .local _ .vmem, ⟨4, _⟩ => ⟨S128x512, .f32⟩
  | _, _ => ⟨S8x16x12288, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![24], ![false]⟩

def k0_cond1 (i : grid0.Coords) : BitVec 1 :=
  let arg0 : BitVec 32 := BitVec.ofNat 32 (i 0).val
  let c12_i32 : BitVec 32 := 12#32
  let v0 : BitVec 1 := Scalar.cmpi .slt arg0 c12_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c12_i32_0 : BitVec 32 := 12#32
  let v3 : BitVec 1 := Scalar.cmpi .sge arg0 c12_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x6144 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6144x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x16x12288_S128x12288 : S8x16x12288.ShapeCasts S128x12288
  inb_S128x6144_S128x6144_0_0 : ∀ a, (![0, 0] : Fin 2 → Nat) a + S128x6144.size a ≤ S128x6144.size a
  h_S128x6144 : 0 < S128x6144.numel
  shapeCasts_S128x6144_S128x6144 : S128x6144.ShapeCasts S128x6144
  bitsLt_bf16_f32 : FTy.bits .bf16 < FTy.bits .f32
  inb_S6144x512_S6144x512_0_0 : ∀ a, (![0, 0] : Fin 2 → Nat) a + S6144x512.size a ≤ S6144x512.size a
  h_S6144x512 : 0 < S6144x512.numel
  inb_S128x512_S128x512_0_0 : ∀ a, (![0, 0] : Fin 2 → Nat) a + S128x512.size a ≤ S128x512.size a
  h_S128x512 : 0 < S128x512.numel
  shapeCasts_S128x12288_S8x16x12288 : S128x12288.ShapeCasts S8x16x12288
  dot_S128x6144_S6144x512_S128x512_1_0_0_1_n_n_wf : DotDims.WF S128x6144 S6144x512 S128x512 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S128x6144.size a ≤ S128x12288.size a
  hwx0_0 : ∀ i : grid0.Coords, EltTy.bits .f32 = 32 ∨ (Rect.block (s := S128x12288) S128x6144.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6144x512.size a ≤ S6144x6144.size a
  hwx0_1 : ∀ i : grid0.Coords, EltTy.bits .f32 = 32 ∨ (Rect.block (s := S6144x6144) S6144x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x512.size a ≤ S128x12288.size a
  hwx0_2 : ∀ i : grid0.Coords, EltTy.bits .f32 = 32 ∨ (Rect.block (s := S128x12288) S128x512.size (cc0_transform_2 i) (hinb0_2 i)).WholeWords (EltTy.packing .f32)

variable [Facts₀]

def dot_S128x6144_S6144x512_S128x512_1_0_0_1_n_n : DotDims S128x6144 S6144x512 S128x512 where
  lhsContracting := [1]
  rhsContracting := [0]
  lhsNonContracting := [0]
  rhsNonContracting := [1]
  lhsBatch := []
  rhsBatch := []
  wf := dot_S128x6144_S6144x512_S128x512_1_0_0_1_n_n_wf

abbrev win0_0 : Pipeline.Window sig grid0 :=
  Pipeline.Window.ofSpec (Memref.whole main_v0) S128x6144.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S6144x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S128x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond1 i == 1#1) && !(k0_cond2 i == 1#1) | ⟨_ + 3, h⟩ => absurd h (Nat.not_lt.2 (Nat.le_add_left _ _))

class Facts : Prop extends Facts₀ where

variable [Facts]
-- ==== ReferenceIdeal.lean ====
abbrev S8x16x12288 : Shape := ⟨3, ![8, 16, 12288]⟩
abbrev S6144x6144 : Shape := ⟨2, ![6144, 6144]⟩
abbrev S8x16x6144 : Shape := ⟨3, ![8, 16, 6144]⟩
abbrev S_ : Shape := ⟨0, ![]⟩
abbrev S1 : Shape := ⟨1, ![1]⟩

abbrev nBuf : Space → Nat
  | .hbm => 17
  | .vmem => 0
  | .smem => 0
  | _ => 0

abbrev bufTy : (tb : Table) → Fin (tcTables nBuf tb) → BufTy
  | .hbm, ⟨0, _⟩ => ⟨S8x16x12288, .f32⟩
  | .hbm, ⟨1, _⟩ => ⟨S6144x6144, .f32⟩
  | .hbm, ⟨2, _⟩ => ⟨S8x16x6144, .f32⟩
  | .hbm, ⟨3, _⟩ => ⟨S8x16x6144, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x16x6144, .f32⟩
  | .hbm, ⟨8, _⟩ => ⟨S8x16x6144, .f32⟩
  | .hbm, ⟨9, _⟩ => ⟨S_, .f32⟩
  | .hbm, ⟨10, _⟩ => ⟨S8x16x6144, .f32⟩
  | .hbm, ⟨11, _⟩ => ⟨S8x16x6144, .f32⟩
  | .hbm, ⟨12, _⟩ => ⟨S_, .f32⟩
  | .hbm, ⟨13, _⟩ => ⟨S8x16x12288, .f32⟩
  | .hbm, ⟨14, _⟩ => ⟨S_, .i32⟩
  | .hbm, ⟨15, _⟩ => ⟨S1, .i32⟩
  | .hbm, ⟨16, _⟩ => ⟨S8x16x12288, .f32⟩
  | _, _ => ⟨S8x16x12288, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_cst_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]

class Facts₀ : Prop where
  slices_S8x16x12288_S8x16x6144_0_0_0 : S8x16x12288.Slices ![0, 0, 0] S8x16x6144
  bcast_S_S8x16x6144 : S_.BroadcastsInDim S8x16x6144 (![] : Fin 0 → Fin S8x16x6144.rank)
  bcast_S_S8x16x12288 : S_.BroadcastsInDim S8x16x12288 (![] : Fin 0 → Fin S8x16x12288.rank)
  bcast_S_S1 : S_.BroadcastsInDim S1 (![] : Fin 0 → Fin S1.rank)
  dot_S8x16x6144_S6144x6144_S8x16x6144_2_0_01_1_n_n_wf : DotDims.WF S8x16x6144 S6144x6144 S8x16x6144 [2] [0] [0, 1] [1] [] []
  scatter_S8x16x12288_S1_S8x16x6144_012_n_2_0_wf : ScatterDims.WF S8x16x12288 S1 S8x16x6144 [0, 1, 2] [] [2] 0

variable [Facts₀]

def dot_S8x16x6144_S6144x6144_S8x16x6144_2_0_01_1_n_n : DotDims S8x16x6144 S6144x6144 S8x16x6144 where
  lhsContracting := [2]
  rhsContracting := [0]
  lhsNonContracting := [0, 1]
  rhsNonContracting := [1]
  lhsBatch := []
  rhsBatch := []
  wf := dot_S8x16x6144_S6144x6144_S8x16x6144_2_0_01_1_n_n_wf
def scatter_S8x16x12288_S1_S8x16x6144_012_n_2_0 : ScatterDims S8x16x12288 S1 S8x16x6144 where
  updateWindowDims := [0, 1, 2]
  insertedWindowDims := []
  scatterDimsToOperandDims := [2]
  indexVectorDim := 0
  wf := scatter_S8x16x12288_S1_S8x16x6144_012_n_2_0_wf

class Facts : Prop extends Facts₀ where

variable [Facts]
-- ==== Proof.LibScatterSet.lean ====
/-
  A scatter whose body returns the update (`x.at[…].set(v)`), read at one index of the operand.

  The host's scatter is a left fold over the update indices in row-major order: each update index `j` that lands
  inside the operand, at `d.resultIdx? j idx = some i`, replaces the element at `i`; an update that lands outside
  is dropped. Read at a fixed operand index `i'` the fold is decided by which update indices land on `i'`:

    * none does        — the operand's own element `x i'` survives (any body `f`);
    * exactly one, `j` — the element is the update's, `upd j` (the body returning the update).

  Both are instances of two facts about a left fold of point updates over a list without repetitions, stated first
  for an arbitrary step function.
-/
import Idealize.ShloMosaic.PureOps

noncomputable section

namespace Cert.LibScatterSet

open Idealize.ShloMosaic

/-- A fold of steps none of which changes the value at `i'` leaves the value at `i'` as it started. -/
theorem foldl_apply_of_miss {ι κ α : Type} (stepf : (ι → α) → κ → (ι → α)) (i' : ι) (l : List κ)
    (h : ∀ n ∈ l, ∀ r, stepf r n i' = r i') (x : ι → α) : l.foldl stepf x i' = x i' := by
  induction l generalizing x with
  | nil => rfl
  | cons n l ih =>
    rw [List.foldl_cons, ih (fun n' hn' => h n' (List.mem_cons_of_mem _ hn')), h n List.mem_cons_self]

/-- A fold over a list without repetitions in which exactly one step, `n₀`, touches `i'` — setting it to `v`
    whatever was there — ends with `v` at `i'`. -/
theorem foldl_apply_of_hit {ι κ α : Type} (stepf : (ι → α) → κ → (ι → α)) (i' : ι) (v : α) (l : List κ) (n₀ : κ)
    (hn₀ : n₀ ∈ l) (hnd : l.Nodup) (hhit : ∀ r, stepf r n₀ i' = v)
    (hmiss : ∀ n ∈ l, n ≠ n₀ → ∀ r, stepf r n i' = r i') (x : ι → α) : l.foldl stepf x i' = v := by
  induction l generalizing x with
  | nil => exact absurd hn₀ List.not_mem_nil
  | cons n l ih =>
    rw [List.foldl_cons]
    have hnd' := List.nodup_cons.mp hnd
    by_cases hn : n = n₀
    · subst hn
      rw [foldl_apply_of_miss stepf i' l (fun n' hn' => hmiss n' (List.mem_cons_of_mem _ hn')
        (fun e => hnd'.1 (e ▸ hn'))), hhit]
    · have hmem : n₀ ∈ l := by
        rcases List.mem_cons.mp hn₀ with e | e
        · exact absurd e.symm hn
        · exact e
      exact ih hmem hnd'.2 (fun n' hn' => hmiss n' (List.mem_cons_of_mem _ hn')) _

variable {s si u : Shape} {w : Nat} {α : Type}

/-- No update index lands on `i'`: the scatter leaves the operand's element there. -/
theorem scatter_apply_of_miss (d : ScatterDims s si u) (f : α → α → α) (x : s.Idx → α) (idx : IVec si w)
    (upd : u.Idx → α) (i' : s.Idx) (h : ∀ j, d.resultIdx? j idx ≠ some i') :
    Host.scatter d f x idx upd i' = x i' := by
  unfold Host.scatter
  refine foldl_apply_of_miss _ i' _ (fun n _ r => ?_) x
  have hn := h (u.rowMajor.symm n)
  generalize d.resultIdx? (u.rowMajor.symm n) idx = o at hn ⊢
  cases o with
  | none => rfl
  | some i => exact if_neg (fun (e : i' = i) => hn (by rw [e]))

/-- Exactly one update index, `j`, lands on `i'`, and the body returns the update: the element there is `upd j`. -/
theorem scatter_set_apply_of_hit (d : ScatterDims s si u) (x : s.Idx → α) (idx : IVec si w)
    (upd : u.Idx → α) (i' : s.Idx) (j : u.Idx) (hj : d.resultIdx? j idx = some i')
    (huniq : ∀ j', d.resultIdx? j' idx = some i' → j' = j) :
    Host.scatter d (fun _ b => b) x idx upd i' = upd j := by
  unfold Host.scatter
  refine foldl_apply_of_hit _ i' (upd j) _ (u.rowMajor j) (List.mem_finRange _) (List.nodup_finRange _)
    (fun r => ?_) (fun n _ hn r => ?_) x
  · have e : u.rowMajor.symm (u.rowMajor j) = j := Equiv.symm_apply_apply _ _
    rw [e, hj]
    exact if_pos rfl
  · have hu := huniq (u.rowMajor.symm n)
    generalize d.resultIdx? (u.rowMajor.symm n) idx = o at hu ⊢
    cases o with
    | none => rfl
    | some i =>
      refine if_neg (fun (e : i' = i) => hn ?_)
      have hj' := hu (by rw [e])
      rw [← hj', Equiv.apply_symm_apply]

end Cert.LibScatterSet

end
-- ==== Proof.Spec.lean ====
/-
  The function both programs compute, index by index on the extended reals.

  With `x` of shape [8, 16, 12288] and `w` of shape [6144, 6144], the result at `(b, c, j)` is

      clip (Σ_{k < 6144} x[b, c, k] · w[k, j])   for j < 6144,        0   for j ≥ 6144,

  where `clip s = min 1 (max 0 s)` (the two bounds kept as the f32 words both programs print). The kernel works on
  the flattened rows `r = 16·b + c` of `x` viewed as [128, 12288] and its result is viewed back as [8, 16, 12288];
  `reshape_Gflat` says the two views carry the flat form of the function to the function itself: row-major position
  `(16·b + c)·12288 + j` on both sides.
-/
import Idealize.ShloMosaic.PureOps.Ideal
import Idealize.ShloMosaic.PureOps.Ideal.Laws
import Idealize.ShloMosaic.Lib.ValueIdx
import Idealize.ShloMosaic.Lib.Pipeline.Value

noncomputable section

namespace Cert.Spec

open Idealize.ShloMosaic Idealize.ShloMosaic.ValueIdx

/-- The argument and result shape, the weight shape, and the flattened shape the kernel works on. -/
abbrev SX : Shape := ⟨3, ![8, 16, 12288]⟩
abbrev SW : Shape := ⟨2, ![6144, 6144]⟩
abbrev S2 : Shape := ⟨2, ![128, 12288]⟩

/-- `min 1 (max 0 s)`, the bounds as the printed f32 words. -/
def clip (s : EReal) : EReal :=
  min (Ideal.ofBits .f32 0x3F800000#32) (max (Ideal.ofBits .f32 0x00000000#32) s)

/-- A column index below 6144, as an index into the first 6144 of 12288 columns. -/
abbrev wide (k : Fin 6144) : Fin 12288 := ⟨k.val, Nat.lt_trans k.isLt (by decide)⟩

/-- The result at coordinates `(b, c, j)`. -/
def G3 (x : SX.Idx → EReal) (w : SW.Idx → EReal) (b : Fin 8) (c : Fin 16) (j : Fin 12288) : EReal :=
  if h : j.val < 6144 then clip (∑ k : Fin 6144, x (ix3 b c (wide k)) * w (ix2 k (⟨j.val, h⟩ : Fin 6144)))
  else Ideal.ofBits .f32 0x00000000#32

/-- The result array as a function of the two argument arrays. -/
def G (x : SX.Idx → EReal) (w : SW.Idx → EReal) : SX.Idx → EReal := fun i =>
  G3 x w ⟨(i 0).val, (i 0).isLt⟩ ⟨(i 1).val, (i 1).isLt⟩ ⟨(i 2).val, (i 2).isLt⟩

/-- The same on flattened rows: the result at `(r, j)` of a [128, 12288] array `x2`. -/
def G2 (x2 : S2.Idx → EReal) (w : SW.Idx → EReal) (r : Fin 128) (j : Fin 12288) : EReal :=
  if h : j.val < 6144 then clip (∑ k : Fin 6144, x2 (ix2 r (wide k)) * w (ix2 k (⟨j.val, h⟩ : Fin 6144)))
  else Ideal.ofBits .f32 0x00000000#32

/-- The flat result array. -/
def Gflat (x2 : S2.Idx → EReal) (w : SW.Idx → EReal) : S2.Idx → EReal := fun i =>
  G2 x2 w ⟨(i 0).val, (i 0).isLt⟩ ⟨(i 1).val, (i 1).isLt⟩

/-- Row `16·b + c` of the flattened argument is row `(b, c)` of the argument. -/
theorem flat_row (x : SX.Idx → EReal) (h1 : SX.ShapeCasts S2) (b : Fin 8) (c : Fin 16) (k : Fin 12288)
    (hr : 16 * b.val + c.val < 128) :
    shapeCast S2 x h1 (ix2 (⟨16 * b.val + c.val, hr⟩ : Fin 128) k) = x (ix3 b c k) := by
  refine shapeCast_apply x h1 _ _ ?_
  rw [Shape.rowMajor_val_two, Shape.rowMajor_val_three]
  show (b.val * 16 + c.val) * 12288 + k.val = (16 * b.val + c.val) * 12288 + k.val
  omega

/-- Flattening the argument's rows, computing the flat result, and un-flattening is the result. -/
theorem reshape_Gflat (x : SX.Idx → EReal) (w : SW.Idx → EReal) (h1 : SX.ShapeCasts S2) (h2 : S2.ShapeCasts SX) :
    shapeCast SX (Gflat (shapeCast S2 x h1) w) h2 = G x w := by
  funext i
  have hb : (i 0).val < 8 := (i 0).isLt
  have hc : (i 1).val < 16 := (i 1).isLt
  have hj : (i 2).val < 12288 := (i 2).isLt
  have hr : 16 * (i 0).val + (i 1).val < 128 := by omega
  rw [shapeCast_apply _ h2 i (ix2 (⟨16 * (i 0).val + (i 1).val, hr⟩ : Fin 128) (⟨(i 2).val, hj⟩ : Fin 12288)) (by
    rw [Shape.rowMajor_val_two, Shape.rowMajor_val_three]
    show (16 * (i 0).val + (i 1).val) * 12288 + (i 2).val = ((i 0).val * 16 + (i 1).val) * 12288 + (i 2).val
    omega)]
  show G2 (shapeCast S2 x h1) w ⟨16 * (i 0).val + (i 1).val, hr⟩ ⟨(i 2).val, hj⟩
    = G3 x w ⟨(i 0).val, hb⟩ ⟨(i 1).val, hc⟩ ⟨(i 2).val, hj⟩
  unfold G2 G3
  by_cases h : (i 2).val < 6144
  · rw [dif_pos h, dif_pos h]
    refine congrArg clip (Finset.sum_congr rfl fun k _ => ?_)
    rw [flat_row x h1 ⟨(i 0).val, hb⟩ ⟨(i 1).val, hc⟩ (wide k) hr]
  · rw [dif_neg h, dif_neg h]

end Cert.Spec

end
-- ==== Proof.RefValue.lean ====
/-
  The reference's result is the specification `G` of its two arguments.

  The reference slices the first 6144 columns of `x`, contracts them with `w`, clips, and writes the [8, 16, 6144]
  result into a zero array of shape [8, 16, 12288] by a scatter with ONE start index, the word 0 on axis 2, and a
  window over all three axes: update element `(b, c, k)` lands at operand element `(b, c, 0 + k)`. So an operand
  index `(b, c, j)` with `j < 6144` is hit by exactly one update element, `(b, c, j)`, and one with `j ≥ 6144` by
  none and keeps the zero.
-/
import proofs.«164347_j3118146257523_2_alg».proof.Proof.Gen.ReferenceIdeal.Read
import proofs.«164347_j3118146257523_2_alg».proof.Proof.LibScatterSet
import proofs.«164347_j3118146257523_2_alg».proof.Proof.Spec

noncomputable section

namespace Cert.ReferenceIdeal.RefValue

open Cert.ReferenceIdeal Cert.ReferenceIdeal.Gen Cert.ReferenceIdeal.Read Idealize.ShloMosaic Idealize.ShloMosaic.ValueIdx

/-- The scatter's dimension numbers. -/
abbrev SD : ScatterDims S8x16x12288 S1 S8x16x6144 := scatter_S8x16x12288_S1_S8x16x6144_012_n_2_0

/-- Every start component read off an all-zero index array is 0. -/
theorem start_zero (j : S8x16x6144.Idx) (idx : IVec S1 32) (hidx : ∀ k, idx k = 0#32) (a : Fin S8x16x12288.rank) :
    SD.start j idx a = 0 := by
  unfold ScatterDims.start
  split
  · rw [hidx]; rfl
  · rfl

/-- The window coordinate on each operand axis is the update index's coordinate on the same axis. -/
theorem window_0 (j : S8x16x6144.Idx) : SD.window j 0 = (j 0).val := by
  unfold ScatterDims.window
  rw [dif_pos (show (0 : Fin S8x16x12288.rank) ∈ SD.sKept by decide)]
  rfl
theorem window_1 (j : S8x16x6144.Idx) : SD.window j 1 = (j 1).val := by
  unfold ScatterDims.window
  rw [dif_pos (show (1 : Fin S8x16x12288.rank) ∈ SD.sKept by decide)]
  rfl
theorem window_2 (j : S8x16x6144.Idx) : SD.window j 2 = (j 2).val := by
  unfold ScatterDims.window
  rw [dif_pos (show (2 : Fin S8x16x12288.rank) ∈ SD.sKept by decide)]
  rfl

/-- Update element `j` lands at the operand element with the same three coordinates. -/
theorem resultIdx_eq (j : S8x16x6144.Idx) (idx : IVec S1 32) (hidx : ∀ k, idx k = 0#32) :
    SD.resultIdx? j idx = some (idx_main_v0 j) := by
  have h0 : (j 0).val < 8 := (j 0).isLt
  have h1 : (j 1).val < 16 := (j 1).isLt
  have h2 : (j 2).val < 6144 := (j 2).isLt
  unfold ScatterDims.resultIdx?
  have h : ∀ a, 0 ≤ SD.start j idx a + SD.window j a ∧ SD.start j idx a + SD.window j a < S8x16x12288.size a := by
    intro a
    rw [start_zero j idx hidx a]
    match a with
    | ⟨0, _⟩ => rw [show SD.window j ⟨0, _⟩ = (j 0).val from window_0 j]; show 0 ≤ (0 : Int) + ((j 0).val : Int) ∧ (0 : Int) + ((j 0).val : Int) < ((8 : Nat) : Int); omega
    | ⟨1, _⟩ => rw [show SD.window j ⟨1, _⟩ = (j 1).val from window_1 j]; show 0 ≤ (0 : Int) + ((j 1).val : Int) ∧ (0 : Int) + ((j 1).val : Int) < ((16 : Nat) : Int); omega
    | ⟨2, _⟩ => rw [show SD.window j ⟨2, _⟩ = (j 2).val from window_2 j]; show 0 ≤ (0 : Int) + ((j 2).val : Int) ∧ (0 : Int) + ((j 2).val : Int) < ((12288 : Nat) : Int); omega
  rw [dif_pos h]
  refine congrArg some (funext fun a => Fin.ext ?_)
  show (SD.start j idx a + SD.window j a).toNat = (idx_main_v0 j a).val
  rw [start_zero j idx hidx a]
  match a with
  | ⟨0, _⟩ => rw [show SD.window j ⟨0, _⟩ = (j 0).val from window_0 j]; show ((0 : Int) + ((j 0).val : Int)).toNat = (j 0).val; omega
  | ⟨1, _⟩ => rw [show SD.window j ⟨1, _⟩ = (j 1).val from window_1 j]; show ((0 : Int) + ((j 1).val : Int)).toNat = (j 1).val; omega
  | ⟨2, _⟩ => rw [show SD.window j ⟨2, _⟩ = (j 2).val from window_2 j]; show ((0 : Int) + ((j 2).val : Int)).toNat = (j 2).val; omega

/-- An operand index in the first 6144 columns, as an update index. -/
abbrev narrow (i : S8x16x12288.Idx) (h : (i 2).val < 6144) : S8x16x6144.Idx :=
  ix3 (⟨(i 0).val, (i 0).isLt⟩ : Fin 8) (⟨(i 1).val, (i 1).isLt⟩ : Fin 16) (⟨(i 2).val, h⟩ : Fin 6144)

/-- THE SCATTER AT AN INDEX: in the first 6144 columns the update's element with the same coordinates, beyond them
    the operand's own element. -/
theorem scatter_apply {α : Type} (x : S8x16x12288.Idx → α) (idx : IVec S1 32) (hidx : ∀ k, idx k = 0#32)
    (upd : S8x16x6144.Idx → α) (i : S8x16x12288.Idx) :
    Host.scatter SD (fun _ b => b) x idx upd i = if h : (i 2).val < 6144 then upd (narrow i h) else x i := by
  by_cases h : (i 2).val < 6144
  · rw [dif_pos h]
    refine Cert.LibScatterSet.scatter_set_apply_of_hit SD x idx upd i (narrow i h) ?_ ?_
    · rw [resultIdx_eq _ idx hidx]
      refine congrArg some (funext fun a => Fin.ext ?_)
      match a with
      | ⟨0, _⟩ => rfl
      | ⟨1, _⟩ => rfl
      | ⟨2, _⟩ => rfl
    · intro j' hj'
      rw [resultIdx_eq _ idx hidx] at hj'
      have e := Option.some.inj hj'
      funext a
      apply Fin.ext
      match a with
      | ⟨0, _⟩ => exact congrArg Fin.val (congrFun e 0)
      | ⟨1, _⟩ => exact congrArg Fin.val (congrFun e 1)
      | ⟨2, _⟩ =>
        have e2 : (idx_main_v0 j' 2).val = (i 2).val := congrArg Fin.val (congrFun e 2)
        exact e2
  · rw [dif_neg h]
    refine Cert.LibScatterSet.scatter_apply_of_miss SD _ x idx upd i (fun j hj => h ?_)
    rw [resultIdx_eq _ idx hidx] at hj
    have e : (j 2).val = (i 2).val := congrArg Fin.val (congrFun (Option.some.inj hj) 2)
    have h2 : (j 2).val < 6144 := (j 2).isLt
    omega

/-- THE REFERENCE IS `G`: its last stage, read index by index through the scatter, the clip, the contraction and the
    slice, is the specification of the two arguments. -/
theorem ref_eq (x : (⟨S8x16x12288, .f32⟩ : BufTy).Contents (Elt Ideal)) (w : (⟨S6144x6144, .f32⟩ : BufTy).Contents (Elt Ideal)) :
    val_main_v5 (F := Ideal) x w = Cert.Spec.G x w := by
  funext i
  unfold val_main_v5
  rw [scatter_apply _ _ (fun k => by rw [val_main_v4_apply]; rfl) _ i]
  unfold Cert.Spec.G Cert.Spec.G3
  by_cases h : (i 2).val < 6144
  · rw [dif_pos h, dif_pos h, val_main_v2_apply, val_main_call0_v4_apply, val_main_call0_v2_apply,
      val_main_call0_v1_apply, val_main_v1_apply]
    simp only [val_main_call0_v3_apply, val_main_cst_0_apply, val_main_call0_v0_apply, val_main_cst_apply,
      val_main_v0_apply, Ideal.minimumf_def, Ideal.maximumf_def, Ideal.ofBits_def]
    unfold Cert.Spec.clip
    have el : ∀ k : Fin 6144, idx_main_v0 (lidx_main_v1 (narrow i h) k)
        = ix3 (⟨(i 0).val, (i 0).isLt⟩ : Fin 8) (⟨(i 1).val, (i 1).isLt⟩ : Fin 16) (Cert.Spec.wide k) := fun k =>
      funext fun a => Fin.ext (by match a with | ⟨0, _⟩ => rfl | ⟨1, _⟩ => rfl | ⟨2, _⟩ => rfl)
    have er : ∀ k : Fin 6144, ridx_main_v1 (narrow i h) k = ix2 k (⟨(i 2).val, h⟩ : Fin 6144) := fun k =>
      funext fun a => Fin.ext (by match a with | ⟨0, _⟩ => rfl | ⟨1, _⟩ => rfl)
    refine congrArg (min _) (congrArg (max _) (Finset.sum_congr rfl fun k _ => ?_))
    rw [el k, er k]
  · rw [dif_neg h, dif_neg h, val_main_v3_apply, val_main_cst_1_apply]
    rfl

end Cert.ReferenceIdeal.RefValue

end
-- ==== Proof.KernelPieces.lean ====
/-
  What each of the body's two cases leaves in the output's staging buffer: its one store covers the whole
  [128, 512] block, so the buffer reads back as that store's value — in the first case the payload of the two input
  blocks, in the second the zero block.
-/
import proofs.«164347_j3118146257523_2_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.SL.Sem

variable {F : FTy → Type} [FloatOps F]

theorem hz : (![0, 0] : Fin 2 → Nat) = fun _ => 0 := funext fun a => by fin_cases a <;> rfl

/-- Case A (grid points 0 … 11): the buffer ends at the first payload of the two input blocks. -/
theorem out_A (c : Dev nD) (i : grid0.Coords) (a1 : Memref sig .tc .vmem S128x6144 .f32) (h1 : a1.IsWhole)
    (a2 : Memref sig .tc .vmem S6144x512 .f32) (h2 : a2.IsWhole) (a3 : Memref sig .tc .vmem S128x512 .f32) (h3 : a3.IsWhole)
    (hc0 : cond0_0 i) (hc1 : ¬cond0_1 i) (x0 : Vec F S128x6144 .f32) (x1 : Vec F S6144x512 .f32) :
    out0_A_2 c i a1 h1 a2 h2 a3 h3 hc0 hc1 x0 x1 = k0_pay1 x0 x1 := by
  unfold out0_A_2
  rw [View.read_writes_eq_canon _ _ _ (cover0_A_2 c i a1 h1 a2 h2 a3 h3 hc0 hc1 x0 x1)]
  unfold kernelRun0_A
  dsimp only
  rw [View.canon_unit_zero hz]
  simp only [View.readAt_eq_ld, h1.read_unread, h2.read_unread, View.ld_unit_zero (S := S128x6144) hz,
    View.ld_unit_zero (S := S6144x512) hz]

/-- Case B (grid points 12 … 23): the buffer ends at the second payload, the zero block. -/
theorem out_B (c : Dev nD) (i : grid0.Coords) (a1 : Memref sig .tc .vmem S128x6144 .f32) (h1 : a1.IsWhole)
    (a2 : Memref sig .tc .vmem S6144x512 .f32) (h2 : a2.IsWhole) (a3 : Memref sig .tc .vmem S128x512 .f32) (h3 : a3.IsWhole)
    (hc0 : ¬cond0_0 i) (hc1 : cond0_1 i) (x0 : Vec F S128x6144 .f32) (x1 : Vec F S6144x512 .f32) :
    out0_B_2 c i a1 h1 a2 h2 a3 h3 hc0 hc1 x0 x1 = k0_pay2 (F := F) := by
  unfold out0_B_2
  rw [View.read_writes_eq_canon _ _ _ (cover0_B_2 c i a1 h1 a2 h2 a3 h3 hc0 hc1 x0 x1)]
  unfold kernelRun0_B
  dsimp only
  rw [View.canon_unit_zero hz]

end Cert.KernelIdeal.Pieces

end
-- ==== Proof.KernelPayload.lean ====
/-
  The kernel body's two stored values, read at an index of the [128, 512] output block.

  In the first twelve grid points the body stores `min 1 (max 0 (A · B))` where `A` is its [128, 6144] block of the
  flattened argument and `B` its [6144, 512] block of the weights, both rounded to bf16 on the way into the matrix
  unit — the identity on the extended reals — and the product accumulated into a zero block: at `(p, q)` that is
  `clip (Σ_{k < 6144} A[p, k] · B[k, q])`. In the last twelve it stores the zero word everywhere.
-/
import proofs.«164347_j3118146257523_2_alg».proof.Proof.Gen.KernelIdeal.Skeleton
import proofs.«164347_j3118146257523_2_alg».proof.Proof.Spec
import Idealize.ShloMosaic.Lib.ValueIdx
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The matrix unit's dimension numbers: rows × contraction times contraction × columns. -/
abbrev MD : DotDims S128x6144 S6144x512 S128x512 := dot_S128x6144_S6144x512_S128x512_1_0_0_1_n_n

theorem lhs_0 (i : S128x512.Idx) (q : MD.contr.Idx) : (MD.lhsIdx i q 0).val = (i 0).val := by
  unfold DotDims.lhsIdx
  rw [dif_neg (show ¬(0 : Fin S128x6144.rank) ∈ MD.lhsBatch by decide), dif_pos (show (0 : Fin S128x6144.rank) ∈ MD.lhsNonContracting by decide)]
  rfl
theorem lhs_1 (i : S128x512.Idx) (q : MD.contr.Idx) : (MD.lhsIdx i q 1).val = (q ⟨0, by decide⟩).val :=
  MD.lhsIdx_val_of_single rfl i q
theorem rhs_0 (i : S128x512.Idx) (q : MD.contr.Idx) : (MD.rhsIdx i q 0).val = (q ⟨0, by decide⟩).val :=
  MD.rhsIdx_val_of_single rfl i q
theorem rhs_1 (i : S128x512.Idx) (q : MD.contr.Idx) : (MD.rhsIdx i q 1).val = (i 1).val := by
  unfold DotDims.rhsIdx
  rw [dif_neg (show ¬(1 : Fin S6144x512.rank) ∈ MD.rhsBatch by decide), dif_pos (show (1 : Fin S6144x512.rank) ∈ MD.rhsNonContracting by decide)]
  rfl

/-- The matrix product into a zero accumulator at `(p, q)`: the sum over the contracted axis. -/
theorem matmul_zero_apply {φ₁ φ₂ : FTy} (a : FVec Ideal S128x6144 φ₁) (b : FVec Ideal S6144x512 φ₂) (p : Fin 128) (q : Fin 512) :
    matmul MD none a b (constant S128x512 .f32 0x00000000#32) (ix2 p q) = ∑ k : Fin 6144, a (ix2 p k) * b (ix2 k q) := by
  show FloatOps.matmul MD none a b (constant S128x512 .f32 0x00000000#32) (ix2 p q) = _
  rw [Ideal.matmul_constant_zero_apply, ← Equiv.sum_comp (contrEquiv1 MD 6144 rfl rfl).symm]
  refine Finset.sum_congr rfl fun k _ => ?_
  have hk := contrEquiv1_symm_val MD 6144 rfl rfl k
  have el : MD.lhsIdx (ix2 p q) ((contrEquiv1 MD 6144 rfl rfl).symm k) = ix2 p k := funext fun a => Fin.ext (by
    match a with
    | ⟨0, _⟩ => exact lhs_0 _ _
    | ⟨1, _⟩ => exact (lhs_1 _ _).trans hk)
  have er : MD.rhsIdx (ix2 p q) ((contrEquiv1 MD 6144 rfl rfl).symm k) = ix2 k q := funext fun a => Fin.ext (by
    match a with
    | ⟨0, _⟩ => exact (rhs_0 _ _).trans hk
    | ⟨1, _⟩ => exact rhs_1 _ _)
  rw [el, er]

/-- THE FIRST PAYLOAD AT AN INDEX: the clipped dot product of row `p` of the first block with column `q` of the second. -/
theorem pay1_apply (x0 : Vec Ideal S128x6144 .f32) (x1 : Vec Ideal S6144x512 .f32) (p : Fin 128) (q : Fin 512) :
    k0_pay1 (F := Ideal) x0 x1 (ix2 p q) = Cert.Spec.clip (∑ k : Fin 6144, x0 (ix2 p k) * x1 (ix2 k q)) := by
  unfold k0_pay1
  show min (Ideal.ofBits .f32 0x3F800000#32) (max (Ideal.ofBits .f32 0x00000000#32)
    (matmul MD none (truncf .bf16 (shapeCast S128x6144 x0 shapeCasts_S128x6144_S128x6144) bitsLt_bf16_f32)
      (truncf .bf16 x1 bitsLt_bf16_f32) (constant S128x512 .f32 0x00000000#32) (ix2 p q))) = _
  rw [matmul_zero_apply, shapeCast_self]
  rfl

/-- THE SECOND PAYLOAD AT AN INDEX: the zero word. -/
theorem pay2_apply (y : S128x512.Idx) : k0_pay2 (F := Ideal) y = Ideal.ofBits .f32 0x00000000#32 := rfl

/-- A POINT OF THE FIRST TWELVE: if the first block's row `p` is row `p` of an array `A0` (its first 6144 columns) and the
    second block is columns `512·T …` of an array `A1`, the payload at `(p, q)` is the flat specification of `A0`, `A1`
    at `(p, 512·T + q)` — a column below 6144 since `T < 12`. -/
theorem pay1_block (x0 : Vec Ideal S128x6144 .f32) (x1 : Vec Ideal S6144x512 .f32)
    (A0 : Cert.Spec.S2.Idx → EReal) (A1 : Cert.Spec.SW.Idx → EReal) (T : Nat) (hT : T < 12)
    (e0 : ∀ (p : Fin 128) (k : Fin 6144), x0 (ix2 p k) = A0 (ix2 p (Cert.Spec.wide k)))
    (e1 : ∀ (k : Fin 6144) (q : Fin 512), x1 (ix2 k q) = A1 (ix2 k (⟨T * 512 + q.val, by have := q.isLt; omega⟩ : Fin 6144)))
    (p : Fin 128) (q : Fin 512) (hq : T * 512 + q.val < 12288) :
    k0_pay1 (F := Ideal) x0 x1 (ix2 p q) = Cert.Spec.G2 A0 A1 p ⟨T * 512 + q.val, hq⟩ := by
  have hq' : q.val < 512 := q.isLt
  rw [pay1_apply]
  unfold Cert.Spec.G2
  rw [dif_pos (show T * 512 + q.val < 6144 by omega)]
  refine congrArg Cert.Spec.clip (Finset.sum_congr rfl fun k _ => ?_)
  rw [e0, e1]

/-- A POINT OF THE LAST TWELVE: the zero block is the flat specification at the columns `512·T + q ≥ 6144`. -/
theorem pay2_block (A0 : Cert.Spec.S2.Idx → EReal) (A1 : Cert.Spec.SW.Idx → EReal) (T : Nat) (hT : 12 ≤ T)
    (p : Fin 128) (q : Fin 512) (hq : T * 512 + q.val < 12288) :
    k0_pay2 (F := Ideal) (ix2 p q) = Cert.Spec.G2 A0 A1 p ⟨T * 512 + q.val, hq⟩ := by
  unfold Cert.Spec.G2
  rw [dif_neg (show ¬T * 512 + q.val < 6144 by omega)]
  rfl

end Cert.KernelIdeal.Payload

end
-- ==== Proof.KernelValue.lean ====
/-
  The kernel's output array after the run, as one function of the arrays the region finds.

  Grid point `t` (of 24) reads the whole [128, 6144] left half of the flattened argument (block index (0, 0) at every
  point), the [6144, 512] column block `min t 11` of the weights, and writes back the [128, 512] column block `t` of the
  output. For `t < 12` what it writes is the clipped product, i.e. the flat specification at columns `512·t …`; for
  `t ≥ 12` the zero block, again the flat specification there (columns ≥ 6144). The 24 column blocks tile the
  [128, 12288] output: column `j` is in block `j / 512`. So the output array ends at the flat specification.
-/
import proofs.«164347_j3118146257523_2_alg».proof.Proof.Gen.KernelIdeal.Frame
import proofs.«164347_j3118146257523_2_alg».proof.Proof.KernelPieces
import proofs.«164347_j3118146257523_2_alg».proof.Proof.KernelPayload
import proofs.«164347_j3118146257523_2_alg».proof.Proof.Spec
import Idealize.ShloMosaic.Lib.Pipeline.Value
import Idealize.ShloMosaic.Lib.StableHlo.Run
import Idealize.ShloMosaic.Lib.Tactic

noncomputable section

namespace Cert.KernelIdeal.Flat

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The printed index maps over the grid: the left operand's block never moves, the weights' column block is
    `min t 11`, the output's column block is `t`. -/
theorem idx_facts : ∀ t : Fin cfg0.N, win0_0.index t (0 : Fin 2) = 0 ∧ win0_0.index t (1 : Fin 2) = 0
    ∧ win0_1.index t (0 : Fin 2) = 0 ∧ win0_1.index t (1 : Fin 2) = min t.val 11
    ∧ win0_2.index t (0 : Fin 2) = 0 ∧ win0_2.index t (1 : Fin 2) = t.val :=
  (by decide +kernel : ∀ t : Fin grid0.N, _)

/-- The left block at any point is the first 6144 columns of the flattened argument. -/
theorem iblk0_apply (c : Dev nD) (t : Fin cfg0.N) (p : Fin 128) (k : Fin 6144) :
    (iblk m c 0 t : Vec Ideal S128x6144 .f32) (ix2 p k) = (V m c main_v0 : S128x12288.Idx → EReal) (ix2 p (Cert.Spec.wide k)) := by
  obtain ⟨e00, e01, -, -, -, -⟩ := idx_facts t
  show V m c main_v0 (((cfg0.win 0).blk t).view.emb (ix2 p k)) = V m c main_v0 (ix2 p (Cert.Spec.wide k))
  refine congrArg (V m c main_v0) (funext fun a => Fin.ext ?_)
  match a with
  | ⟨0, _⟩ => show win0_0.index t (0 : Fin 2) * 128 + 1 * p.val = p.val; rw [e00]; omega
  | ⟨1, _⟩ => show win0_0.index t (1 : Fin 2) * 6144 + 1 * k.val = k.val; rw [e01]; omega

/-- The weights' block at a point of the first twelve is their column block `t`. -/
theorem iblk1_apply (c : Dev nD) (t : Fin cfg0.N) (ht : t.val < 12) (k : Fin 6144) (q : Fin 512) :
    (iblk m c 1 t : Vec Ideal S6144x512 .f32) (ix2 k q)
      = (V m c main_arg1 : S6144x6144.Idx → EReal) (ix2 k (⟨t.val * 512 + q.val, by have := q.isLt; omega⟩ : Fin 6144)) := by
  obtain ⟨-, -, e10, e11, -, -⟩ := idx_facts t
  show V m c main_arg1 (((cfg0.win 1).blk t).view.emb (ix2 k q)) = V m c main_arg1 (ix2 k _)
  refine congrArg (V m c main_arg1) (funext fun a => Fin.ext ?_)
  match a with
  | ⟨0, _⟩ => show win0_1.index t (0 : Fin 2) * 6144 + 1 * k.val = k.val; rw [e10]; omega
  | ⟨1, _⟩ => show win0_1.index t (1 : Fin 2) * 512 + 1 * q.val = t.val * 512 + q.val; rw [e11]; omega

/-- Where the output's block at point `t` sits in the output array: rows as they are, columns `512·t …`. -/
theorem emb2 (t : Fin cfg0.N) (p : Fin 128) (q : Fin 512) (hq : t.val * 512 + q.val < 12288) :
    ((cfg0.win 2).blk t).view.emb (ix2 p q) = (ix2 p (⟨t.val * 512 + q.val, hq⟩ : Fin 12288) : S128x12288.Idx) := by
  obtain ⟨-, -, -, -, e20, e21⟩ := idx_facts t
  refine funext fun a => Fin.ext ?_
  match a with
  | ⟨0, _⟩ => show win0_2.index t (0 : Fin 2) * 128 + 1 * p.val = p.val; rw [e20]; omega
  | ⟨1, _⟩ => show win0_2.index t (1 : Fin 2) * 512 + 1 * q.val = t.val * 512 + q.val; rw [e21]; omega

/-- WHAT POINT `t` WRITES BACK is block `t` of the flat specification of the arrays the region finds. -/
theorem flushed_eq (c : Dev nD) (t : Fin cfg0.N) :
    (dats m 0 c).flushed 2 t
      = ((cfg0.win 2).blk t).view.read (Elt Ideal) (Cert.Spec.Gflat (V m c main_v0) (V m c main_arg1)) := by
  have hN : t.val < 24 := lt_of_lt_of_eq t.isLt (show cfg0.N = 24 from N_0)
  show (cfg0.win 2).cut (grid0.coords t) ((dats m 0 c).after 2 t) = _
  rw [after0_2]
  by_cases h0 : t.val < 12
  · rw [outsAt0_A m c t h0 (by omega), Cert.KernelIdeal.Pieces.out_A]
    funext y
    obtain ⟨p, q, rfl⟩ : ∃ (p : Fin 128) (q : Fin 512), y = ix2 p q := ⟨y 0, y 1, eq_ix2 y⟩
    have hq : t.val * 512 + q.val < 12288 := by have := q.isLt; omega
    show k0_pay1 (F := Ideal) (iblk m c 0 t) (iblk m c 1 t) (ix2 p q)
      = Cert.Spec.Gflat (V m c main_v0) (V m c main_arg1) (((cfg0.win 2).blk t).view.emb (ix2 p q))
    rw [emb2 t p q hq]
    exact Cert.KernelIdeal.Payload.pay1_block (iblk m c 0 t) (iblk m c 1 t) (V m c main_v0) (V m c main_arg1) t.val h0
      (iblk0_apply m c t) (iblk1_apply m c t h0) p q hq
  · rw [outsAt0_B m c t h0 (by omega), Cert.KernelIdeal.Pieces.out_B]
    funext y
    obtain ⟨p, q, rfl⟩ : ∃ (p : Fin 128) (q : Fin 512), y = ix2 p q := ⟨y 0, y 1, eq_ix2 y⟩
    have hq : t.val * 512 + q.val < 12288 := by have := q.isLt; omega
    show k0_pay2 (F := Ideal) (ix2 p q)
      = Cert.Spec.Gflat (V m c main_v0) (V m c main_arg1) (((cfg0.win 2).blk t).view.emb (ix2 p q))
    rw [emb2 t p q hq]
    exact Cert.KernelIdeal.Payload.pay2_block (V m c main_v0) (V m c main_arg1) t.val (by omega) p q hq

/-- An index of the output array is in point `t`'s block iff each coordinate is in the block's range on its axis. -/
theorem mem_blk (t : Fin cfg0.N) (i : S128x12288.Idx) :
    i ∈ ((cfg0.win 2).blk t).view.set ↔ ∀ a : Fin 2, win0_2.index t a * S128x512.size a ≤ (i a).val
      ∧ (i a).val < win0_2.index t a * S128x512.size a + S128x512.size a := by
  show i ∈ ((View.whole main_v1).slice (win0_2.rect t)).set ↔ _
  rw [View.set_slice_whole, Rect.mem_set_unit]
  exact Iff.rfl

/-- THE COVER: column `j` of the output is written back by point `j / 512`. -/
theorem cover (i : S128x12288.Idx) :
    ∃ t : Fin cfg0.N, (cfg0.win 2).flush t = true ∧ i ∈ ((cfg0.win 2).blk t).view.set := by
  have h0 : (i 0).val < 128 := (i 0).isLt
  have h1 : (i 1).val < 12288 := (i 1).isLt
  have hN : cfg0.N = 24 := N_0
  have ht : (i 1).val / 512 < cfg0.N := by rw [hN]; omega
  refine ⟨⟨(i 1).val / 512, ht⟩, flush0_2 _, ?_⟩
  rw [mem_blk]
  obtain ⟨-, -, -, -, e20, e21⟩ := idx_facts ⟨(i 1).val / 512, ht⟩
  intro a
  match a with
  | ⟨0, _⟩ =>
    show win0_2.index ⟨(i 1).val / 512, ht⟩ (0 : Fin 2) * 128 ≤ (i 0).val
      ∧ (i 0).val < win0_2.index ⟨(i 1).val / 512, ht⟩ (0 : Fin 2) * 128 + 128
    rw [e20]; omega
  | ⟨1, _⟩ =>
    show win0_2.index ⟨(i 1).val / 512, ht⟩ (1 : Fin 2) * 512 ≤ (i 1).val
      ∧ (i 1).val < win0_2.index ⟨(i 1).val / 512, ht⟩ (1 : Fin 2) * 512 + 512
    rw [e21]
    show (i 1).val / 512 * 512 ≤ (i 1).val ∧ (i 1).val < (i 1).val / 512 * 512 + 512
    omega

/-- THE OUTPUT ARRAY after the run: the flat specification of the arrays the region finds. -/
theorem final (c : Dev nD) :
    (dats m 0 c).arrAt 2 cfg0.N = Cert.Spec.Gflat (V m c main_v0) (V m c main_arg1) :=
  (dats m 0 c).arrAt_eq_of_cover 2 _ (fun t _ => flushed_eq m c t) cover

end Cert.KernelIdeal.Flat

end
-- ==== Proof.KernelRun.lean ====
/-
  The kernel's program, run: its result is the specification `G` of its two arguments.

  Around the region the program flattens the argument [8, 16, 12288] → [128, 12288] before it and un-flattens the
  output [128, 12288] → [8, 16, 12288] after it. The region finds the flattened argument and the weights as launched;
  its output array ends at the flat specification of them; and the two reshapes carry the flat specification to `G`.
-/
import proofs.«164347_j3118146257523_2_alg».proof.Proof.KernelValue

noncomputable section

namespace Cert.KernelIdeal.Flat

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The region finds the argument flattened. -/
theorem V_main_v0 (c : Dev nD) : (V m c main_v0 : S128x12288.Idx → EReal)
    = shapeCast S128x12288 (m ((c : Thread nD τ).loc main_arg0)) shapeCasts_S8x16x12288_S128x12288 := by
  show StableHlo.after hostOps0 (fun b => m (c, b)) (Proc.devRef .tc main_v0) = _
  after_results
  rfl

/-- After the region the result is the output array un-flattened. -/
theorem tail_eq (c : Dev nD) : Pipeline.afterTail₀ cfgs (dats m) 0 (V0 m) [hostOps1] c main_v2
    = shapeCast S8x16x12288 ((dats m 0 c).arrAt 2 cfg0.N) shapeCasts_S128x12288_S8x16x12288 := by
  unfold Pipeline.afterTail₀
  show StableHlo.after hostOps1 _ (Proc.devRef .tc main_v2) = _
  after_results
  have hw : Pipeline.withArrays (cfgs 0).spec c (V0 m c) (fun w => (dats m 0 c).arrAt w (cfgs 0).N) (Proc.devRef .tc main_v1)
      = (dats m 0 c).arrAt 2 cfg0.N := Pipeline.withArrays_arr spec0 launch0.win.arr_inj c _ _ 2
  rw [hw]
  rfl

/-- THE RESULT: un-flattening the flat specification of the flattened argument is the specification. -/
theorem result_eq (c : Dev nD) : Pipeline.afterTail₀ cfgs (dats m) 0 (V0 m) [hostOps1] c main_v2
    = Cert.Spec.G (m ((c : Thread nD τ).loc main_arg0)) (m ((c : Thread nD τ).loc main_arg1)) := by
  rw [tail_eq, final, V_main_v0, V_main_arg1]
  exact Cert.Spec.reshape_Gflat _ _ _ _

/-- THE RUN, READ: every weakly fair execution ends with the result at `G` of the arguments and the arguments
    unchanged. -/
theorem run : θ_run defs (onTc (τ := τ) (main (F := Ideal))) ⟨m, fun _ => 0, ρ⟩ fun r => ∀ c : Dev nD,
      r.2.mem ((c : Thread nD τ).loc main_v2)
        = Cert.Spec.G (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c),
       ((h c).1 1).trans (((dats m 0 c).arrAt_in 1 rfl _).trans ((A_eq m c 1).trans (V_main_arg1 m c)))⟩)
    (run_main m ρ)

end Cert.KernelIdeal.Flat

end
-- ==== Proof.lean ====
/-
  The kernel computes, for `x` of shape [8, 16, 12288] and `w` of shape [6144, 6144],

      out[b, c, j] = min 1 (max 0 (Σ_{k < 6144} x[b, c, k] · w[k, j]))   for j < 6144,      out[b, c, j] = 0   for j ≥ 6144,

  by flattening `x` to [128, 12288], running a 24-point grid over [128, 512] column blocks of the output — the first
  twelve points a bf16 matrix product of the left half of the flattened `x` with a column block of `w`, clipped; the
  last twelve the zero block — and un-flattening. The reference slices `x`, contracts with `w`, clips, and scatters
  the [8, 16, 6144] result into a zero array at column 0.

  On the extended reals both are the function `Cert.Spec.G` of the two arguments (Proof/Spec.lean): the kernel's run
  read back block by block (Proof/KernelPieces.lean, KernelPayload.lean, KernelValue.lean, KernelRun.lean), the
  reference's run read index by index through its scatter (Proof/LibScatterSet.lean, RefValue.lean). Rounding to bf16
  is the identity there, the matrix unit's product into a zero accumulator and the host's contraction are the same sum
  over `k`, and the two programs clip with the same two words in the same order; no law beyond re-indexing is used,
  so finiteness of the inputs is never needed. The ideal pass rewrote nothing, so `preserves` is `True`.
-/
import proofs.«164347_j3118146257523_2_alg».proof.Defs
import proofs.«164347_j3118146257523_2_alg».proof.Proof.Gen.Kernel
import proofs.«164347_j3118146257523_2_alg».proof.Proof.Gen.Kernel.Skeleton
import proofs.«164347_j3118146257523_2_alg».proof.Proof.Gen.Kernel.Launch
import proofs.«164347_j3118146257523_2_alg».proof.Proof.Gen.Kernel.Points
import proofs.«164347_j3118146257523_2_alg».proof.Proof.Gen.Kernel.Frame
import proofs.«164347_j3118146257523_2_alg».proof.Proof.Gen.KernelIdeal
import proofs.«164347_j3118146257523_2_alg».proof.Proof.Gen.KernelIdeal.Skeleton
import proofs.«164347_j3118146257523_2_alg».proof.Proof.Gen.KernelIdeal.Launch
import proofs.«164347_j3118146257523_2_alg».proof.Proof.Gen.KernelIdeal.Points
import proofs.«164347_j3118146257523_2_alg».proof.Proof.Gen.KernelIdeal.Frame
import proofs.«164347_j3118146257523_2_alg».proof.Proof.Gen.ReferenceIdeal
import proofs.«164347_j3118146257523_2_alg».proof.Proof.Gen.Pre_finite_inputs
import proofs.«164347_j3118146257523_2_alg».proof.Proof.Gen.ReferenceIdeal.Run
import proofs.«164347_j3118146257523_2_alg».proof.Proof.Gen.ReferenceIdeal.Read
import proofs.«164347_j3118146257523_2_alg».proof.Proof.RefValue
import proofs.«164347_j3118146257523_2_alg».proof.Proof.KernelRun
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation of the kernel. -/
theorem preserves : Cert.preserves_Kernel_KernelIdeal := trivial

/-- On the extended reals the kernel's result array ends at `G` of its arguments and the reference's at its composed
    term, which is `G` of arguments that agree. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Flat.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.ReferenceIdeal.RefValue.ref_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
